-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel

variable [Facts]

def fn {F : FTy → Type} [FloatOps F] (main_arg0 : FVec F S50000x512 .f32) (main_arg1 : FVec F S50000x512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x512 .f32 := Host.absf main_arg1
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  main_v8
-- ==== Kernel.lean ====
abbrev S50000x512 : Shape := ⟨2, ![50000, 512]⟩
abbrev S512x512 : Shape := ⟨2, ![512, 512]⟩
abbrev S2000x512 : Shape := ⟨2, ![2000, 512]⟩
abbrev S1x512 : Shape := ⟨2, ![1, 512]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S512x512, .f32⟩
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S512x512, .f32⟩
  | .local _ .vmem, ⟨5, _⟩ => ⟨S1x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S2000x512_S2000x512_0_0 : ∀ a, (![0, 0] : Fin 2 → Nat) a + S2000x512.size a ≤ S2000x512.size a
  h_S2000x512 : 0 < S2000x512.numel
  shapeCasts_S512x512_S512x512 : S512x512.ShapeCasts S512x512
  bitsLt_bf16_f32 : FTy.bits .bf16 < FTy.bits .f32
  reduces_S2000x512_S512 : S2000x512.Reduces [0] S512
  shapeCasts_S512_S1x512 : S512.ShapeCasts S1x512
  iota_S512x512_d0_w32 : S512x512.Iotas .tc 32 [0]
  iota_S512x512_d1_w32 : S512x512.Iotas .tc 32 [1]
  natLt_1_32 : 1 < 32
  broadcasts_S512x1_S512x512 : S512x1.Broadcasts S512x512
  dot_S2000x512_S2000x512_S512x512_0_0_1_1_n_n_wf : DotDims.WF S2000x512 S2000x512 S512x512 [0] [0] [1] [1] [] []
  dot_S512x512_S1x512_S512x1_1_1_0_0_n_n_wf : DotDims.WF S512x512 S1x512 S512x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S50000x512.size a
  hwx0_1 : ∀ i : grid0.Coords, EltTy.bits .f32 = 32 ∨ (Rect.block (s := S50000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)

variable [Facts₀]

def dot_S2000x512_S2000x512_S512x512_0_0_1_1_n_n : DotDims S2000x512 S2000x512 S512x512 where
  lhsContracting := [0]
  rhsContracting := [0]
  lhsNonContracting := [1]
  rhsNonContracting := [1]
  lhsBatch := []
  rhsBatch := []
  wf := dot_S2000x512_S2000x512_S512x512_0_0_1_1_n_n_wf
def dot_S512x512_S1x512_S512x1_1_1_0_0_n_n : DotDims S512x512 S1x512 S512x1 where
  lhsContracting := [1]
  rhsContracting := [1]
  lhsNonContracting := [0]
  rhsNonContracting := [0]
  lhsBatch := []
  rhsBatch := []
  wf := dot_S512x512_S1x512_S512x1_1_1_0_0_n_n_wf

abbrev win0_0 : Pipeline.Window sig grid0 :=
  Pipeline.Window.ofSpec (Memref.whole main_arg1) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S_ : Shape := ⟨0, ![]⟩
abbrev S512 : Shape := ⟨1, ![512]⟩
abbrev S512x50000 : Shape := ⟨2, ![512, 50000]⟩
abbrev S512x512 : Shape := ⟨2, ![512, 512]⟩
abbrev S512x1 : Shape := ⟨2, ![512, 1]⟩

abbrev nBuf : Space → Nat
  | .hbm => 9
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S_, .f32⟩
  | .hbm, ⟨3, _⟩ => ⟨S512, .f32⟩
  | .hbm, ⟨4, _⟩ => ⟨S512x50000, .f32⟩
  | .hbm, ⟨5, _⟩ => ⟨S512x512, .f32⟩
  | .hbm, ⟨6, _⟩ => ⟨S512x1, .f32⟩
  | .hbm, ⟨7, _⟩ => ⟨S512x512, .f32⟩
  | .hbm, ⟨8, _⟩ => ⟨S512x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  reducesTo_S50000x512_S512_d0 : S50000x512.ReducesTo [0] S512
  h_S_ : 0 < S_.numel
  transposes_S50000x512_S512x50000_1_0 : S50000x512.Transposes [1, 0] S512x50000
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  dot_S512x50000_S50000x512_S512x512_1_0_0_1_n_n_wf : DotDims.WF S512x50000 S50000x512 S512x512 [1] [0] [0] [1] [] []

variable [Facts₀]

def dot_S512x50000_S50000x512_S512x512_1_0_0_1_n_n : DotDims S512x50000 S50000x512 S512x512 where
  lhsContracting := [1]
  rhsContracting := [0]
  lhsNonContracting := [0]
  rhsNonContracting := [1]
  lhsBatch := []
  rhsBatch := []
  wf := dot_S512x50000_S50000x512_S512x512_1_0_0_1_n_n_wf

class Facts : Prop extends Facts₀ where

variable [Facts]
-- ==== Proof.Pieces.lean ====
/-
  What one run of the kernel body leaves behind, as values.

  The body keeps two running quantities: the `[512, 512]` output block `O` and the `[1, 512]` row of weights `w`.  With
  `t`, `f` the point's two `[2000, 512]` input blocks, every point replaces `O` by `O + tᵀ·f` and `w` by `w + colsum t`;
  the first point starts both from zero, and the last point then divides `O` row-wise by `w` (transposed to a column by
  a product with the identity matrix).  Each lemma says that the contents the run leaves in a buffer are the
  corresponding arithmetic term of the contents it found.
-/
import proofs.«179116_g44066364457311_cont_sun_m_439_4_alg».proof.Proof.Gen.KernelIdeal.Frame
import Idealize.ShloMosaic.Lib.Pipeline.Value
import Idealize.ShloMosaic.Lib.Tactic

set_option maxRecDepth 16384

noncomputable section

namespace Cert.KernelIdeal.Found

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-! ## The output block -/

/-- First point: the output is zeroed, read back, and left at `0 + tᵀ·f`. -/
theorem out_first (c : Dev nD) (i : grid0.Coords) (a1 : Memref sig .tc .vmem S2000x512 .f32) (h1 : a1.IsWhole)
    (a2 : Memref sig .tc .vmem S2000x512 .f32) (h2 : a2.IsWhole) (a3 : Memref sig .tc .vmem S512x512 .f32) (h3 : a3.IsWhole)
    (a4 : Memref sig .tc .vmem S1x512 .f32) (h4 : a4.IsWhole) (hc0 : cond0_0 i) (hc1 : ¬cond0_1 i)
    (x0 x1 : Vec F S2000x512 .f32) :
    out0_A_2 c i a1 h1 a2 h2 a3 h3 a4 h4 hc0 hc1 x0 x1 = k0_pay3 x0 x1 k0_pay1 := by
  unfold out0_A_2
  rw [View.read_writes_eq_canon _ _ _ (cover0_A_2 c i a1 h1 a2 h2 a3 h3 a4 h4 hc0 hc1 x0 x1)]
  unfold kernelRun0_A
  dsimp only
  sl_unfold_words
  rw [View.canon_cons_unit_zero (S := S512x512) hz, View.readCov_unit_zero (S := S512x512) _ hz]
  simp only [View.readAt_eq_ld, h1.read_unread, h2.read_unread, h3.read_unread, h4.read_unread,
    View.ld_unit_zero (S := S2000x512) hz, View.ld_unit_zero (S := S512x512) hz, View.ld_unit_zero (S := S1x512) hz]

/-- A middle point: the output found at `O` is left at `O + tᵀ·f`. -/
theorem out_middle (c : Dev nD) (i : grid0.Coords) (a1 : Memref sig .tc .vmem S2000x512 .f32) (h1 : a1.IsWhole)
    (a2 : Memref sig .tc .vmem S2000x512 .f32) (h2 : a2.IsWhole) (a3 : Memref sig .tc .vmem S512x512 .f32) (h3 : a3.IsWhole)
    (a4 : Memref sig .tc .vmem S1x512 .f32) (h4 : a4.IsWhole) (hc0 : ¬cond0_0 i) (hc1 : ¬cond0_1 i)
    (x0 x1 : Vec F S2000x512 .f32) (xo : Vec F S512x512 .f32) (xs : Vec F S1x512 .f32) :
    out0_B_2 c i a1 h1 a2 h2 a3 h3 a4 h4 hc0 hc1 x0 x1 xo xs = k0_pay3 x0 x1 xo := by
  unfold out0_B_2
  rw [View.read_writes_eq_canon _ _ _ (cover0_B_2 c i a1 h1 a2 h2 a3 h3 a4 h4 hc0 hc1 x0 x1 xo xs)]
  unfold kernelRun0_B
  dsimp only
  rw [View.canon_unit_zero hz]
  simp only [View.readAt_eq_ld, h1.read_unread, h2.read_unread, h3.read_unread, h4.read_unread,
    View.ld_unit_zero (S := S2000x512) hz, View.ld_unit_zero (S := S512x512) hz, View.ld_unit_zero (S := S1x512) hz]

/-- Last point: the output found at `O` and the weights found at `w` are updated as at a middle point, read back, and
    the output is left at the quotient of the two updated quantities. -/
theorem out_last (c : Dev nD) (i : grid0.Coords) (a1 : Memref sig .tc .vmem S2000x512 .f32) (h1 : a1.IsWhole)
    (a2 : Memref sig .tc .vmem S2000x512 .f32) (h2 : a2.IsWhole) (a3 : Memref sig .tc .vmem S512x512 .f32) (h3 : a3.IsWhole)
    (a4 : Memref sig .tc .vmem S1x512 .f32) (h4 : a4.IsWhole) (hc0 : ¬cond0_0 i) (hc1 : cond0_1 i)
    (x0 x1 : Vec F S2000x512 .f32) (xo : Vec F S512x512 .f32) (xs : Vec F S1x512 .f32) :
    out0_C_2 c i a1 h1 a2 h2 a3 h3 a4 h4 hc0 hc1 x0 x1 xo xs = k0_pay5 (k0_pay4 x0 xs) (k0_pay3 x0 x1 xo) := by
  unfold out0_C_2
  rw [View.read_writes_eq_canon _ _ _ (cover0_C_2 c i a1 h1 a2 h2 a3 h3 a4 h4 hc0 hc1 x0 x1 xo xs)]
  unfold kernelRun0_C
  dsimp only
  sl_unfold_words
  rw [View.canon_cons_unit_zero (S := S512x512) hz, View.readCov_unit_zero (S := S512x512) _ hz,
    View.readCov_unit_zero (S := S1x512) _ hz]
  simp only [View.readAt_eq_ld, h1.read_unread, h2.read_unread, h3.read_unread, h4.read_unread,
    View.ld_unit_zero (S := S2000x512) hz, View.ld_unit_zero (S := S512x512) hz, View.ld_unit_zero (S := S1x512) hz]

/-! ## The row of weights -/

/-- First point: the weights are zeroed, read back, and left at `0 + colsum t`. -/
theorem weights_first (c : Dev nD) (i : grid0.Coords) (a1 : Memref sig .tc .vmem S2000x512 .f32) (h1 : a1.IsWhole)
    (a2 : Memref sig .tc .vmem S2000x512 .f32) (h2 : a2.IsWhole) (a3 : Memref sig .tc .vmem S512x512 .f32) (h3 : a3.IsWhole)
    (a4 : Memref sig .tc .vmem S1x512 .f32) (h4 : a4.IsWhole) (hc0 : cond0_0 i) (hc1 : ¬cond0_1 i)
    (x0 x1 : Vec F S2000x512 .f32) :
    sout0_A_0 c i a1 h1 a2 h2 a3 h3 a4 h4 hc0 hc1 x0 x1 = k0_pay4 x0 k0_pay2 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x512) hz, View.readCov_unit_zero (S := S1x512) _ hz]
  simp only [View.readAt_eq_ld, h1.read_unread, h2.read_unread, h3.read_unread, h4.read_unread,
    View.ld_unit_zero (S := S2000x512) hz, View.ld_unit_zero (S := S512x512) hz, View.ld_unit_zero (S := S1x512) hz]

/-- A middle point: the weights found at `w` are left at `w + colsum t`. -/
theorem weights_middle (c : Dev nD) (i : grid0.Coords) (a1 : Memref sig .tc .vmem S2000x512 .f32) (h1 : a1.IsWhole)
    (a2 : Memref sig .tc .vmem S2000x512 .f32) (h2 : a2.IsWhole) (a3 : Memref sig .tc .vmem S512x512 .f32) (h3 : a3.IsWhole)
    (a4 : Memref sig .tc .vmem S1x512 .f32) (h4 : a4.IsWhole) (hc0 : ¬cond0_0 i) (hc1 : ¬cond0_1 i)
    (x0 x1 : Vec F S2000x512 .f32) (xo : Vec F S512x512 .f32) (xs : Vec F S1x512 .f32) :
    sout0_B_0 c i a1 h1 a2 h2 a3 h3 a4 h4 hc0 hc1 x0 x1 xo xs = k0_pay4 x0 xs := by
  unfold sout0_B_0
  rw [View.read_writes_eq_canon _ _ _ (scover0_B_0 c i a1 h1 a2 h2 a3 h3 a4 h4 hc0 hc1 x0 x1 xo xs)]
  unfold kernelRun0_B
  dsimp only
  rw [View.canon_unit_zero hz]
  simp only [View.readAt_eq_ld, h1.read_unread, h2.read_unread, h3.read_unread, h4.read_unread,
    View.ld_unit_zero (S := S2000x512) hz, View.ld_unit_zero (S := S512x512) hz, View.ld_unit_zero (S := S1x512) hz]

/-- Last point: the same update of the weights. -/
theorem weights_last (c : Dev nD) (i : grid0.Coords) (a1 : Memref sig .tc .vmem S2000x512 .f32) (h1 : a1.IsWhole)
    (a2 : Memref sig .tc .vmem S2000x512 .f32) (h2 : a2.IsWhole) (a3 : Memref sig .tc .vmem S512x512 .f32) (h3 : a3.IsWhole)
    (a4 : Memref sig .tc .vmem S1x512 .f32) (h4 : a4.IsWhole) (hc0 : ¬cond0_0 i) (hc1 : cond0_1 i)
    (x0 x1 : Vec F S2000x512 .f32) (xo : Vec F S512x512 .f32) (xs : Vec F S1x512 .f32) :
    sout0_C_0 c i a1 h1 a2 h2 a3 h3 a4 h4 hc0 hc1 x0 x1 xo xs = k0_pay4 x0 xs := by
  unfold sout0_C_0
  rw [View.read_writes_eq_canon _ _ _ (scover0_C_0 c i a1 h1 a2 h2 a3 h3 a4 h4 hc0 hc1 x0 x1 xo xs)]
  unfold kernelRun0_C
  dsimp only
  sl_unfold_words
  rw [View.canon_unit_zero hz]
  simp only [View.readAt_eq_ld, h1.read_unread, h2.read_unread, h3.read_unread, h4.read_unread,
    View.ld_unit_zero (S := S2000x512) hz, View.ld_unit_zero (S := S512x512) hz, View.ld_unit_zero (S := S1x512) hz]

end Cert.KernelIdeal.Found

end
-- ==== Proof.Steps.lean ====
/-
  One grid point's effect on the two running quantities, as equations between the contents after the point and the
  contents after the point before: the first point starts from zero, every later point adds its block's contribution,
  and the last point also divides.
-/
import proofs.«179116_g44066364457311_cont_sun_m_439_4_alg».proof.Proof.Pieces

noncomputable section

namespace Cert.KernelIdeal.Steps

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- After the first point: output `0 + tᵀ·f`, weights `0 + colsum t`, of the point's blocks. -/
theorem at_first (c : Dev nD) (t : Fin cfg0.N) (h0 : t.val % 25 = 0) (h1 : ¬t.val % 25 = 24) :
    outsAt0 m c t.val t.isLt
      = (k0_pay3 (iblk m c 0 t) (iblk m c 1 t) k0_pay1, k0_pay4 (iblk m c 0 t) k0_pay2) := by
  rw [outsAt0_A m c t h0 h1]
  exact congrArg₂ Prod.mk
    (Found.out_first c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t))
    (Found.weights_first c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t))

/-- After a middle point: both quantities of the point before, each plus the point's contribution. -/
theorem at_middle (c : Dev nD) (t : Fin cfg0.N) (h0 : ¬t.val % 25 = 0) (h1 : ¬t.val % 25 = 24) :
    outsAt0 m c t.val t.isLt
      = (k0_pay3 (iblk m c 0 t) (iblk m c 1 t) (outsAt0 m c (t.val - 1) (Nat.lt_of_le_of_lt (Nat.sub_le _ _) t.isLt)).1,
         k0_pay4 (iblk m c 0 t) (outsAt0 m c (t.val - 1) (Nat.lt_of_le_of_lt (Nat.sub_le _ _) t.isLt)).2) := by
  rw [outsAt0_B m c t h0 h1]
  exact congrArg₂ Prod.mk
    (Found.out_middle c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2)
    (Found.weights_middle c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2)

/-- After the last point: the output is the quotient of the two updated quantities; the weights are updated as before. -/
theorem at_last (c : Dev nD) (t : Fin cfg0.N) (h0 : ¬t.val % 25 = 0) (h1 : t.val % 25 = 24) :
    outsAt0 m c t.val t.isLt
      = (k0_pay5 (k0_pay4 (iblk m c 0 t) (outsAt0 m c (t.val - 1) (Nat.lt_of_le_of_lt (Nat.sub_le _ _) t.isLt)).2)
           (k0_pay3 (iblk m c 0 t) (iblk m c 1 t) (outsAt0 m c (t.val - 1) (Nat.lt_of_le_of_lt (Nat.sub_le _ _) t.isLt)).1),
         k0_pay4 (iblk m c 0 t) (outsAt0 m c (t.val - 1) (Nat.lt_of_le_of_lt (Nat.sub_le _ _) t.isLt)).2) := by
  rw [outsAt0_C m c t h0 h1]
  exact congrArg₂ Prod.mk
    (Found.out_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2)
    (Found.weights_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2)

end Cert.KernelIdeal.Steps

end
-- ==== Proof.Centers.lean ====
/-
  The cluster centres as one function of the two argument arrays, over the extended reals.

  With `T : [50000, 512]` the soft assignments and `X : [50000, 512]` the features, entry `(c, d)` of the result is the
  weighted sum `∑ₙ T(n, c) · X(n, d)` divided by the weight `∑ₙ T(n, c)`.  Two regroupings of these sums are proved
  here, both valid for ALL extended reals (only commutativity and associativity of `+`, and `0 · x = 0`, `1 · x = x`):

  * a sum over the 50000 rows is the sum, over the 25 consecutive blocks of 2000 rows, of the blocks' sums;
  * a sum against a row of the identity matrix picks out one term.
-/
import Idealize.ShloMosaic.PureOps.Ideal
import Idealize.ShloMosaic.Lib.ValueIdx

noncomputable section

namespace Cert.Centers

open Idealize.ShloMosaic

/-- The weighted sum of feature `d` over all rows, weighted by the rows' assignment to cluster `c`. -/
def wsum (T X : Fin 50000 → Fin 512 → EReal) (c d : Fin 512) : EReal := ∑ n : Fin 50000, T n c * X n d

/-- The total weight of cluster `c`. -/
def weight (T : Fin 50000 → Fin 512 → EReal) (c : Fin 512) : EReal := ∑ n : Fin 50000, T n c

/-- Entry `(c, d)` of the centres: the weighted sum over the weight. -/
def centers (T X : Fin 50000 → Fin 512 → EReal) (c d : Fin 512) : EReal := Ideal.div (wsum T X c d) (weight T c)

/-- Row `r` of block `s` of 2000 rows, as a row of the whole array (total in `s`: reduced modulo the row count, which
    changes nothing for the 25 blocks there are). -/
def row (s : ℕ) (r : Fin 2000) : Fin 50000 := ⟨(2000 * s + r.val) % 50000, Nat.mod_lt _ (by norm_num)⟩

theorem row_val {s : ℕ} (hs : s < 25) (r : Fin 2000) : (row s r).val = 2000 * s + r.val := by
  have := r.isLt
  show (2000 * s + r.val) % 50000 = _
  exact Nat.mod_eq_of_lt (by omega)

/-- The 25 blocks of 2000 rows are the 50000 rows: block `s`, row `r` is row `2000 s + r`. -/
def blocksEquiv : Fin 25 × Fin 2000 ≃ Fin 50000 where
  toFun p := row p.1.val p.2
  invFun n := (⟨n.val / 2000, by have := n.isLt; omega⟩, ⟨n.val % 2000, Nat.mod_lt _ (by norm_num)⟩)
  left_inv p := by
    obtain ⟨s, r⟩ := p
    have hs := s.isLt; have hr := r.isLt
    have hv : (row s.val r).val = 2000 * s.val + r.val := row_val hs r
    refine Prod.ext (Fin.ext ?_) (Fin.ext ?_)
    · show (row s.val r).val / 2000 = s.val
      rw [hv]; omega
    · show (row s.val r).val % 2000 = r.val
      rw [hv]; omega
  right_inv n := by
    have hn := n.isLt
    apply Fin.ext
    have hq : n.val / 2000 < 25 := by omega
    show (row (n.val / 2000) ⟨n.val % 2000, _⟩).val = n.val
    rw [row_val hq]
    show 2000 * (n.val / 2000) + n.val % 2000 = n.val
    omega

/-- A sum over all rows, block by block. -/
theorem sum_blocks (g : Fin 50000 → EReal) :
    ∑ s ∈ Finset.range 25, ∑ r : Fin 2000, g (row s r) = ∑ n : Fin 50000, g n := by
  rw [Finset.sum_range (fun s => ∑ r : Fin 2000, g (row s r)), ← Fintype.sum_prod_type']
  exact Fintype.sum_equiv blocksEquiv _ _ (fun _ => rfl)

/-- A row of the identity matrix against a vector: the one entry on the diagonal survives. -/
theorem sum_eye {n : ℕ} (w : Fin n → EReal) (c : Fin n) :
    ∑ k : Fin n, (if c = k then (1 : EReal) else 0) * w k = w c := by
  rw [Finset.sum_eq_single c]
  · rw [if_pos rfl, one_mul]
  · intro k _ hk; rw [if_neg (Ne.symm hk), zero_mul]
  · intro h; exact absurd (Finset.mem_univ c) h

/-- The identity matrix as the kernel builds it: the comparison of the two coordinates, widened to a 32-bit integer and
    converted to a float, is `1` on the diagonal and `0` off it. -/
theorem eye_entry (a b : Fin 512) :
    (((((IntOp.cmpi .eq (BitVec.ofNat 32 a.val) (BitVec.ofNat 32 b.val)).setWidth 32).toInt : ℤ) : ℝ) : EReal)
      = if a = b then 1 else 0 := by
  by_cases h : a = b
  · subst h
    rw [if_pos rfl]
    simp [IntOp.cmpi]
  · rw [if_neg h]
    have hne : BitVec.ofNat 32 a.val ≠ BitVec.ofNat 32 b.val := fun e => h (Fin.ext (by
      have ha := a.isLt; have hb := b.isLt
      have e' := congrArg BitVec.toNat e
      rw [BitVec.toNat_ofNat, BitVec.toNat_ofNat, Nat.mod_eq_of_lt (by omega), Nat.mod_eq_of_lt (by omega)] at e'
      exact e'))
    have hb : (BitVec.ofNat 32 a.val == BitVec.ofNat 32 b.val) = false := beq_eq_false_iff_ne.mpr hne
    simp [IntOp.cmpi, hb]

end Cert.Centers

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibGramProduct.lean ====
/-
  The matrix product that contracts the FIRST axis of both operands, read at an entry, at the ideal values where a product
  is an exact sum.

  For `A : [k, m]` and `B : [k, n]` the product `Aᵀ · B : [m, n]` into a zero accumulator has at `(a, b)` the sum over
  the shared first coordinate `c` of `A (c, a) · B (c, b)`.
-/
import Idealize.ShloMosaic.Lib.ValueIdx
import Idealize.ShloMosaic.PureOps.Ideal.Laws

noncomputable section

namespace Cert.GramProduct

open Idealize.ShloMosaic Idealize.ShloMosaic.ValueIdx

/-- `Aᵀ · B` into the zero accumulator, read at `(a, b)`: the sum over the shared first coordinate of the products. -/
theorem matmul_tn_apply {m n k : ℕ} {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val
    (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.GramProduct

end
-- ==== Proof.Entries.lean ====
/-
  The body's arithmetic read entry by entry, over the extended reals.

  With `t`, `f : [2000, 512]` a point's input blocks, `O : [512, 512]` the running output and `w : [1, 512]` the running
  weights:
  * the updated output has at `(a, b)` the entry `O(a, b) + ∑ᵣ t(r, a) · f(r, b)` (the rounding of the operands to a
    narrower format before the product is the identity on extended reals);
  * the updated weights have at `(0, k)` the entry `w(0, k) + ∑ᵣ t(r, k)`;
  * the final quotient has at `(a, b)` the entry `O(a, b) / w(0, a)`: the product of the identity matrix with the row
    of weights, which turns the row into a column, has at `(a, 0)` the sum `∑ₖ [a = k] · w(0, k) = w(0, a)`.
-/
import proofs.«179116_g44066364457311_cont_sun_m_439_4_alg».proof.Proof.Gen.KernelIdeal.Skeleton
import proofs.«179116_g44066364457311_cont_sun_m_439_4_alg».proof.Proof.Centers
import proofs.«179116_g44066364457311_cont_sun_m_439_4_alg».proof.Proof.LibBroadcast
import proofs.«179116_g44066364457311_cont_sun_m_439_4_alg».proof.Proof.LibRowsProduct
import proofs.«179116_g44066364457311_cont_sun_m_439_4_alg».proof.Proof.LibGramProduct
import Idealize.ShloMosaic.Lib.Pipeline.Value
import Idealize.ShloMosaic.Lib.ValueIdx
import Idealize.ShloMosaic.PureOps.Ideal.Laws

noncomputable section

namespace Cert.KernelIdeal.Entries

open Cert.KernelIdeal Cert.KernelIdeal.Gen Idealize.ShloMosaic Idealize.ShloMosaic.ValueIdx

/-- The zero block the first point stores into the output. -/
theorem zero_block_apply (i : S512x512.Idx) : (k0_pay1 (F := Ideal)) i = 0 := by
  show Ideal.ofBits .f32 0x00000000#32 = 0
  exact Ideal.ofBits_zero_f32

/-- The zero row the first point stores into the weights. -/
theorem zero_row_apply (i : S1x512.Idx) : (k0_pay2 (F := Ideal)) i = 0 := by
  unfold k0_pay2
  rw [shapeCast_self]
  show Ideal.ofBits .f32 0x00000000#32 = 0
  exact Ideal.ofBits_zero_f32

/-- The updated output at `(a, b)`: the entry found plus the block's contribution `∑ᵣ t(r, a) · f(r, b)`. -/
theorem output_step_apply (x0 x1 : Vec Ideal S2000x512 .f32) (xo : Vec Ideal S512x512 .f32) (a b : Fin 512) :
    k0_pay3 (F := Ideal) x0 x1 xo (ix2 a b) = xo (ix2 a b) + ∑ r : Fin 2000, x0 (ix2 r a) * x1 (ix2 r b) := by
  unfold k0_pay3
  rw [shapeCast_self]
  refine (addf_apply _ _ _).trans (congrArg (xo (ix2 a b) + ·) ?_)
  exact Cert.GramProduct.matmul_tn_apply dot_S2000x512_S2000x512_S512x512_0_0_1_1_n_n_wf none
    (truncf .bf16 x0 bitsLt_bf16_f32) (truncf .bf16 x1 bitsLt_bf16_f32) a b

/-- The updated weights at `(0, k)`: the entry found plus the block's column sum `∑ᵣ t(r, k)`. -/
theorem weights_step_apply (x0 : Vec Ideal S2000x512 .f32) (xs : Vec Ideal S1x512 .f32) (k : Fin 512) :
    k0_pay4 (F := Ideal) x0 xs (ix2 (0 : Fin 1) k) = xs (ix2 (0 : Fin 1) k) + ∑ r : Fin 2000, x0 (ix2 r k) := by
  unfold k0_pay4
  rw [shapeCast_self]
  refine (addf_apply _ _ _).trans (congrArg (xs (ix2 (0 : Fin 1) k) + ·) ?_)
  refine (Cert.Layout.shapeCast_row_apply _ shapeCasts_S512_S1x512 k).trans ?_
  refine (Ideal.multiReduction_add_single (φ := .f32) x0 0x00000000#32 reduces_S2000x512_S512 (.inl rfl) rfl (ix1 k)).trans ?_
  refine Finset.sum_congr rfl fun r _ => ?_
  exact congrArg x0 (funext fun d => Fin.ext (by match d with | ⟨0, _⟩ => rfl | ⟨1, _⟩ => rfl))

/-- The identity matrix at `(a, k)`. -/
theorem eye_apply (a k : Fin 512) :
    (sitofp (F := Ideal) .f32 (extui 32 (cmpi .eq (iota .tc S512x512 32 [0] iota_S512x512_d0_w32)
      (iota .tc S512x512 32 [1] iota_S512x512_d1_w32)) natLt_1_32)) (ix2 a k) = if a = k then 1 else 0 := by
  rw [sitofp_apply, extui_apply]
  show (((((IntOp.cmpi .eq (iota .tc S512x512 32 [0] iota_S512x512_d0_w32 (ix2 a k))
    (iota .tc S512x512 32 [1] iota_S512x512_d1_w32 (ix2 a k))).setWidth 32).toInt : ℤ) : ℝ) : EReal) = _
  rw [iota_single_apply, iota_single_apply]
  exact Cert.Centers.eye_entry a k

/-- The final quotient at `(a, b)`: the output's entry over cluster `a`'s weight. -/
theorem quotient_apply (xs : Vec Ideal S1x512 .f32) (xo : Vec Ideal S512x512 .f32) (a b : Fin 512) :
    k0_pay5 (F := Ideal) xs xo (ix2 a b) = Ideal.div (xo (ix2 a b)) (xs (ix2 (0 : Fin 1) a)) := by
  unfold k0_pay5
  rw [shapeCast_self]
  refine (divf_apply _ _ _).trans (congrArg (Ideal.div (xo (ix2 a b))) ?_)
  refine (Cert.Layout.broadcastTo_a1_ab_apply _ broadcasts_S512x1_S512x512 a b).trans ?_
  refine (Cert.RowsProduct.matmul_nt_apply dot_S512x512_S1x512_S512x1_1_1_0_0_n_n_wf none _ xs a (0 : Fin 1)).trans ?_
  refine (Finset.sum_congr rfl fun k _ => congrArg (· * xs (ix2 (0 : Fin 1) k)) (eye_apply a k)).trans ?_
  exact Cert.Centers.sum_eye (fun k => xs (ix2 (0 : Fin 1) k)) a

end Cert.KernelIdeal.Entries

end
-- ==== Proof.Running.lean ====
/-
  The two running quantities after every grid point, by induction on the point.

  Write `T`, `X : [50000, 512]` for the two argument arrays (assignments and features).  Grid point `s` stages rows
  `2000 s … 2000 s + 1999` of both.  After point `n < 24` the output block holds, at `(a, b)`, the sum over the blocks
  `s ≤ n` of `∑ᵣ T(2000 s + r, a) · X(2000 s + r, b)`, and the weights hold at `(0, k)` the sum over those blocks of
  `∑ᵣ T(2000 s + r, k)`.  The last point adds block 24 to both and leaves their quotient in the output; the 25 blocks
  are all the rows, so that quotient is the centre's entry.
-/
import proofs.«179116_g44066364457311_cont_sun_m_439_4_alg».proof.Proof.Steps
import proofs.«179116_g44066364457311_cont_sun_m_439_4_alg».proof.Proof.Entries

noncomputable section

namespace Cert.KernelIdeal.Running

open Cert.KernelIdeal Cert.KernelIdeal.Gen Idealize.ShloMosaic Idealize.ShloMosaic.TcCoe Idealize.SL.Sem
open Idealize.ShloMosaic.ValueIdx Cert.Centers

variable (m : (ℓ : Loc nD τ sig) → Buf (Elt Ideal) ℓ)

/-- The assignments `T`, by row and cluster: the kernel's second argument array. -/
def tgt (c : Dev nD) : Fin 50000 → Fin 512 → EReal := fun n k => m ((c : Thread nD τ).loc main_arg1) (ix2 n k)

/-- The features `X`, by row and feature: the kernel's first argument array. -/
def feat (c : Dev nD) : Fin 50000 → Fin 512 → EReal := fun n k => m ((c : Thread nD τ).loc main_arg0) (ix2 n k)

/-- Both input windows step through the rows block by block and never move along the columns. -/
theorem rows_index : ∀ t : Fin cfg0.N, (win0_0.index t 0 = t.val ∧ win0_0.index t 1 = 0)
    ∧ (win0_1.index t 0 = t.val ∧ win0_1.index t 1 = 0) :=
  (by decide +kernel : ∀ t : Fin grid0.N, (win0_0.index t 0 = t.val ∧ win0_0.index t 1 = 0)
    ∧ (win0_1.index t 0 = t.val ∧ win0_1.index t 1 = 0))

theorem point_lt (t : Fin cfg0.N) : t.val < 25 := lt_of_lt_of_eq t.isLt (show cfg0.N = 25 from N_0)

/-- Point `t`'s block of assignments: row `r` of the block is row `2000 t + r` of `T`. -/
theorem tgt_block (c : Dev nD) (t : Fin cfg0.N) (r : Fin 2000) (k : Fin 512) :
    (iblk m c 0 t : Vec Ideal S2000x512 .f32) (ix2 r k) = tgt m c (row t.val r) k := by
  unfold iblk tgt
  rw [View.read_apply]
  show V m c main_arg1 _ = m ((c : Thread nD τ).loc main_arg1) _
  unfold V
  congr 1
  funext a
  apply Fin.ext
  match a with
  | ⟨0, _⟩ =>
    show win0_0.index t 0 * 2000 + 1 * r.val = (row t.val r).val
    rw [(rows_index t).1.1, row_val (point_lt t)]; omega
  | ⟨1, _⟩ =>
    show win0_0.index t 1 * 512 + 1 * k.val = k.val
    rw [(rows_index t).1.2]; omega

/-- Point `t`'s block of features: row `r` of the block is row `2000 t + r` of `X`. -/
theorem feat_block (c : Dev nD) (t : Fin cfg0.N) (r : Fin 2000) (k : Fin 512) :
    (iblk m c 1 t : Vec Ideal S2000x512 .f32) (ix2 r k) = feat m c (row t.val r) k := by
  unfold iblk feat
  rw [View.read_apply]
  show V m c main_arg0 _ = m ((c : Thread nD τ).loc main_arg0) _
  unfold V
  congr 1
  funext a
  apply Fin.ext
  match a with
  | ⟨0, _⟩ =>
    show win0_1.index t 0 * 2000 + 1 * r.val = (row t.val r).val
    rw [(rows_index t).2.1, row_val (point_lt t)]; omega
  | ⟨1, _⟩ =>
    show win0_1.index t 1 * 512 + 1 * k.val = k.val
    rw [(rows_index t).2.2]; omega

/-- Block `s`'s contribution to the weighted sum at `(a, b)`. -/
def blockSum (c : Dev nD) (s : ℕ) (a b : Fin 512) : EReal := ∑ r : Fin 2000, tgt m c (row s r) a * feat m c (row s r) b

/-- Block `s`'s contribution to the weight of cluster `k`. -/
def blockWeight (c : Dev nD) (s : ℕ) (k : Fin 512) : EReal := ∑ r : Fin 2000, tgt m c (row s r) k

/-- The updated output at `(a, b)`, in terms of the argument arrays: the entry found plus the block's contribution. -/
theorem output_step (c : Dev nD) (t : Fin cfg0.N) (xo : Vec Ideal S512x512 .f32) (a b : Fin 512) :
    k0_pay3 (F := Ideal) (iblk m c 0 t) (iblk m c 1 t) xo (ix2 a b) = xo (ix2 a b) + blockSum m c t.val a b :=
  (Entries.output_step_apply (iblk m c 0 t) (iblk m c 1 t) xo a b).trans
    (congrArg (xo (ix2 a b) + ·) (Finset.sum_congr rfl fun r _ =>
      congrArg₂ (· * ·) (tgt_block m c t r a) (feat_block m c t r b)))

/-- The updated weights at `(0, k)`, in terms of the argument arrays. -/
theorem weights_step (c : Dev nD) (t : Fin cfg0.N) (xs : Vec Ideal S1x512 .f32) (k : Fin 512) :
    k0_pay4 (F := Ideal) (iblk m c 0 t) xs (ix2 (0 : Fin 1) k) = xs (ix2 (0 : Fin 1) k) + blockWeight m c t.val k :=
  (Entries.weights_step_apply (iblk m c 0 t) xs k).trans
    (congrArg (xs (ix2 (0 : Fin 1) k) + ·) (Finset.sum_congr rfl fun r _ => tgt_block m c t r k))

/-- THE INVARIANT: after point `n < 24` the output and the weights hold the sums over the blocks `0 … n`. -/
theorem partial_sums (c : Dev nD) : ∀ (n : ℕ) (hn : n < cfg0.N), n < 24 →
    (∀ a b : Fin 512, (outsAt0 m c n hn).1 (ix2 a b) = ∑ s ∈ Finset.range (n + 1), blockSum m c s a b)
    ∧ (∀ k : Fin 512, (outsAt0 m c n hn).2 (ix2 (0 : Fin 1) k) = ∑ s ∈ Finset.range (n + 1), blockWeight m c s k)
  | 0, hn, _ => by
    have e : outsAt0 m c 0 hn = _ := Steps.at_first m c ⟨0, hn⟩ rfl (by show ¬((0 : ℕ) % 25 = 24); decide)
    rw [e]
    refine ⟨fun a b => ?_, fun k => ?_⟩
    · refine (output_step m c ⟨0, hn⟩ (k0_pay1 (F := Ideal)) a b).trans ?_
      rw [Entries.zero_block_apply, zero_add, Finset.sum_range_one]
    · refine (weights_step m c ⟨0, hn⟩ (k0_pay2 (F := Ideal)) k).trans ?_
      rw [Entries.zero_row_apply, zero_add, Finset.sum_range_one]
  | n + 1, hn, h24 => by
    obtain ⟨ihO, ihW⟩ := partial_sums c n (Nat.lt_of_succ_lt hn) (by omega)
    have e : outsAt0 m c (n + 1) hn = _ :=
      Steps.at_middle m c ⟨n + 1, hn⟩ (by show ¬(n + 1) % 25 = 0; omega) (by show ¬(n + 1) % 25 = 24; omega)
    rw [e]
    refine ⟨fun a b => ?_, fun k => ?_⟩
    · refine (output_step m c ⟨n + 1, hn⟩ _ a b).trans ?_
      rw [Finset.sum_range_succ _ (n + 1)]
      exact congrArg (· + blockSum m c (n + 1) a b) (ihO a b)
    · refine (weights_step m c ⟨n + 1, hn⟩ _ k).trans ?_
      rw [Finset.sum_range_succ _ (n + 1)]
      exact congrArg (· + blockWeight m c (n + 1) k) (ihW k)

/-- The centres of the two argument arrays, as contents of the result array. -/
def result (c : Dev nD) : Vec Ideal S512x512 .f32 := fun i => centers (tgt m c) (feat m c) (i 0) (i 1)

/-- After the last point the output block holds the centres. -/
theorem last_output (c : Dev nD) (hn : 24 < cfg0.N) : (outsAt0 m c 24 hn).1 = result m c := by
  obtain ⟨ihO, ihW⟩ := partial_sums m c 23 (Nat.lt_of_succ_lt hn) (by omega)
  have e : outsAt0 m c 24 hn = _ := Steps.at_last m c ⟨24, hn⟩ (by show ¬((24 : ℕ) % 25 = 0); decide) rfl
  rw [e]
  funext i
  obtain ⟨a, b, rfl⟩ : ∃ (a b : Fin 512), i = ix2 a b := ⟨i 0, i 1, eq_ix2 i⟩
  refine (Entries.quotient_apply _ _ a b).trans ?_
  show Ideal.div _ _ = Ideal.div (wsum (tgt m c) (feat m c) a b) (weight (tgt m c) a)
  refine congrArg₂ Ideal.div ?_ ?_
  · refine (output_step m c ⟨24, hn⟩ _ a b).trans ?_
    refine (congrArg (· + blockSum m c 24 a b) (ihO a b)).trans ?_
    rw [← Finset.sum_range_succ (fun s => blockSum m c s a b) 24]
    exact sum_blocks (fun n => tgt m c n a * feat m c n b)
  · refine (weights_step m c ⟨24, hn⟩ _ a).trans ?_
    refine (congrArg (· + blockWeight m c 24 a) (ihW a)).trans ?_
    rw [← Finset.sum_range_succ (fun s => blockWeight m c s a) 24]
    exact sum_blocks (fun n => tgt m c n a)

end Cert.KernelIdeal.Running

end
-- ==== Proof.Whole.lean ====
/-
  From the output block to the result array.

  The output window has ONE block, the whole `[512, 512]` array, resident over all 25 grid points and written back
  once, after the last point.  What that write-back writes is the output block after point 24 — the centres — and its
  block covers every index of the array, so the result array ends holding the centres and the two argument arrays are
  as launched.
-/
import proofs.«179116_g44066364457311_cont_sun_m_439_4_alg».proof.Proof.Running
import proofs.«179116_g44066364457311_cont_sun_m_439_4_alg».proof.Proof.Gen.KernelIdeal.Value

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.KernelIdeal.Running

variable (m : (ℓ : Loc nD τ sig) → Buf (Elt Ideal) ℓ) (ρ : Dev nD → PrngReg)

/-- The output window's block index is `(0, 0)` at every point. -/
theorem out_index : ∀ t : Fin cfg0.N, win0_2.index t 0 = 0 ∧ win0_2.index t 1 = 0 :=
  (by decide +kernel : ∀ t : Fin grid0.N, win0_2.index t 0 = 0 ∧ win0_2.index t 1 = 0)

theorem last_lt : 24 < cfg0.N := by rw [show cfg0.N = 25 from N_0]; decide

/-- The one write-back, at the last point, writes the centres: its block at zero offsets is the whole array. -/
theorem flushed_eq (c : Dev nD) (t : Fin cfg0.N) (hf : (cfg0.win 2).flush t = true) :
    (dats m 0 c).flushed 2 t = ((cfg0.win 2).blk t).view.read (Elt Ideal) (result m c) := by
  have h24 : t.val = 24 := by have := (flush0_2 t).mp hf; have := point_lt t; omega
  obtain ⟨tv, ht⟩ := t
  obtain rfl : tv = 24 := h24
  rw [Cert.KernelIdeal.Value.flushed2, last_output m c ht]
  have hz' : (fun a => win0_2.index ⟨24, ht⟩ a * main_v0.ty.shape.size a) = fun _ => 0 := funext fun a => by
    match a with
    | ⟨0, _⟩ => show win0_2.index ⟨24, ht⟩ 0 * 512 = 0; rw [(out_index ⟨24, ht⟩).1]
    | ⟨1, _⟩ => show win0_2.index ⟨24, ht⟩ 1 * 512 = 0; rw [(out_index ⟨24, ht⟩).2]
  exact (Memref.read_access_unit_zero (Elt Ideal) main_v0 hz' (fun a => by rw [congrFun hz' a]; simp) (result m c)).symm

/-- So the result array ends holding the centres: the last point's block covers it. -/
theorem final (c : Dev nD) : (dats m 0 c).arrAt 2 cfg0.N = result m c :=
  (dats m 0 c).arrAt_eq_of_cover 2 (result m c) (flushed_eq m c) fun i =>
    ⟨⟨24, last_lt⟩, (flush0_2 ⟨24, last_lt⟩).mpr rfl, by
      show i ∈ ((View.whole main_v0).slice (win0_2.rect ⟨24, last_lt⟩)).set
      rw [View.set_slice_whole, Rect.mem_set_unit]
      intro a
      have h0 : (i 0 : Nat) < 512 := (i 0).isLt
      have h1 : (i 1 : Nat) < 512 := (i 1).isLt
      match a with
      | ⟨0, _⟩ =>
        show win0_2.index ⟨24, last_lt⟩ 0 * win0_2.size 0 ≤ (i 0 : Nat)
          ∧ (i 0 : Nat) < win0_2.index ⟨24, last_lt⟩ 0 * win0_2.size 0 + win0_2.xsize (grid0.coords ⟨24, last_lt⟩) 0
        rw [(out_index ⟨24, last_lt⟩).1, show win0_2.xsize (grid0.coords ⟨24, last_lt⟩) 0 = 512 from by decide +kernel]
        omega
      | ⟨1, _⟩ =>
        show win0_2.index ⟨24, last_lt⟩ 1 * win0_2.size 1 ≤ (i 1 : Nat)
          ∧ (i 1 : Nat) < win0_2.index ⟨24, last_lt⟩ 1 * win0_2.size 1 + win0_2.xsize (grid0.coords ⟨24, last_lt⟩) 1
        rw [(out_index ⟨24, last_lt⟩).2, show win0_2.xsize (grid0.coords ⟨24, last_lt⟩) 1 = 512 from by decide +kernel]
        omega⟩

/-- The kernel's run, read: the result array at the centres of the two argument arrays, which are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Whole

end
-- ==== Proof.Reference.lean ====
/-
  The reference computes the centres.

  Its program sums the assignments over the rows, multiplies the transposed assignments by the features (one sum over
  the 50000 rows per entry), broadcasts the 512 weights along the rows of the product and divides.  Read at an index
  `(c, d)`, over the extended reals, that is `(∑ₙ T(n, c) · X(n, d)) / (0 + ∑ₙ T(n, c))`.
-/
import proofs.«179116_g44066364457311_cont_sun_m_439_4_alg».proof.Proof.Gen.ReferenceIdeal.Read
import proofs.«179116_g44066364457311_cont_sun_m_439_4_alg».proof.Proof.Centers

noncomputable section

namespace Cert.ReferenceIdeal.RefValue

open Cert.ReferenceIdeal Cert.ReferenceIdeal.Gen Cert.ReferenceIdeal.Read Idealize.ShloMosaic Idealize.ShloMosaic.ValueIdx
open Cert.Centers

/-- The transposed assignments' entry `(c, n)` that the product reads is the assignments' entry `(n, c)`. -/
theorem lhs_index (i : S512x512.Idx) (k : Fin 50000) : idx_main_v1 (lidx_main_v2 i k) = ix2 k (i 0) :=
  funext fun a => Fin.ext (by match a with | ⟨0, _⟩ => rfl | ⟨1, _⟩ => rfl)

/-- The features' entry the product reads. -/
theorem rhs_index (i : S512x512.Idx) (k : Fin 50000) : ridx_main_v2 i k = ix2 k (i 1) :=
  funext fun a => Fin.ext (by match a with | ⟨0, _⟩ => rfl | ⟨1, _⟩ => rfl)

/-- The weight that divides entry `(c, d)` sums the assignments' column `c`. -/
theorem weight_index (i : S512x512.Idx) (k : Fin 50000) : idx_main_v0 (idx_main_v3 (idx_main_v4 i)) k = ix2 k (i 0) :=
  funext fun a => Fin.ext (by match a with | ⟨0, _⟩ => rfl | ⟨1, _⟩ => rfl)

/-- The reference's result, index by index, is the centres of its two argument arrays. -/
theorem result_apply (x0 x1 : (⟨S50000x512, .f32⟩ : BufTy).Contents (Elt Ideal)) (i : S512x512.Idx) :
    val_main_v5 (F := Ideal) x0 x1 i
      = centers (fun n k => x1 (ix2 n k)) (fun n k => x0 (ix2 n k)) (i 0) (i 1) := by
  rw [val_main_v5_apply, val_main_v2_apply, val_main_v4_apply, val_main_v3_apply, val_main_v0_apply]
  simp only [val_main_v1_apply, val_main_cst_apply, lhs_index, rhs_index, weight_index, Ideal.hostDivf_def,
    Ideal.ofBits_def, Ideal.ofBits_zero_f32, zero_add]
  rfl

end Cert.ReferenceIdeal.RefValue

end
-- ==== Proof.lean ====
/-
  Cluster centres: a blocked kernel against the direct formula, over the extended reals.

  For assignments `T : [50000, 512]` and features `X : [50000, 512]` both programs return the `[512, 512]` array whose
  entry `(c, d)` is  (∑ₙ T(n, c) · X(n, d)) / (∑ₙ T(n, c)).

  The reference forms the weights by one sum over the rows, the weighted sums by one product of the transposed
  assignments with the features, and divides.  The kernel walks the rows in 25 blocks of 2000: at each block it adds
  the block's product `tᵀ·f` into a resident `[512, 512]` output block and the block's column sums into a `[1, 512]`
  row of weights (both started from zero at the first block), and after the last block it turns the row of weights
  into a column by a product with the identity matrix and divides the output by it.

  Over the extended reals the operands' rounding to a narrower format before the product is the identity, a sum
  taken block by block is the sum (addition is commutative and associative, with no side condition), the product with
  the identity matrix picks one term (`1 · x = x`, `0 · x = 0` for every `x`), and both divisions are the same function
  of equal arguments: the two results agree for ALL inputs, and the precondition is not used.

  Modules: `Centers` (the formula and the two regroupings), `Pieces` and `Steps` (what one grid point leaves in the
  two running buffers), `Entries` (the body's arithmetic entry by entry), `Running` (the invariant over the grid
  points), `Whole` (the single write-back covers the result array), `Reference` (the reference's result, index by index).
-/
import proofs.«179116_g44066364457311_cont_sun_m_439_4_alg».proof.Defs
import proofs.«179116_g44066364457311_cont_sun_m_439_4_alg».proof.Proof.Gen.Kernel
import proofs.«179116_g44066364457311_cont_sun_m_439_4_alg».proof.Proof.Gen.Kernel.Frame
import proofs.«179116_g44066364457311_cont_sun_m_439_4_alg».proof.Proof.Gen.KernelIdeal
import proofs.«179116_g44066364457311_cont_sun_m_439_4_alg».proof.Proof.Gen.KernelIdeal.Frame
import proofs.«179116_g44066364457311_cont_sun_m_439_4_alg».proof.Proof.Gen.KernelIdeal.Value
import proofs.«179116_g44066364457311_cont_sun_m_439_4_alg».proof.Proof.Gen.ReferenceIdeal
import proofs.«179116_g44066364457311_cont_sun_m_439_4_alg».proof.Proof.Gen.ReferenceIdeal.Run
import proofs.«179116_g44066364457311_cont_sun_m_439_4_alg».proof.Proof.Gen.ReferenceIdeal.Read
import proofs.«179116_g44066364457311_cont_sun_m_439_4_alg».proof.Proof.Gen.Pre_finite_inputs
import proofs.«179116_g44066364457311_cont_sun_m_439_4_alg».proof.Proof.Whole
import proofs.«179116_g44066364457311_cont_sun_m_439_4_alg».proof.Proof.Reference
import Idealize.ShloMosaic.Adequacy
import Idealize.ShloMosaic.Init

noncomputable section

namespace Cert.Proof

open Idealize.ShloMosaic Idealize.SL.Sem

/-- The kernel as printed runs to completion and leaves its arguments unchanged. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- The reference runs to completion and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From arguments that agree, the kernel's result array ends at the centres of its arguments and the reference's at
    the centres of its own: the same array. -/
theorem algebraic : Cert.algebraic_KernelIdeal_ReferenceIdeal := by
  intro m ρ m' ρ' _ hagree
  refine ⟨fun c => Cert.KernelIdeal.Running.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq]
  funext i
  rw [Cert.ReferenceIdeal.RefValue.result_apply, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
